-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S1024x150 : Shape := ⟨2, ![1024, 150]⟩
abbrev S1024 : Shape := ⟨1, ![1024]⟩
abbrev S_ : Shape := ⟨0, ![]⟩

class Facts : Prop where
  bcast_S_S1024x150 : S_.BroadcastsInDim S1024x150 (![] : Fin 0 → Fin S1024x150.rank)
  reducesTo_S1024x150_S_d0_1 : S1024x150.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S128x512 32) (main_arg1 : FVec F S1024x150 .f32) (main_arg2 : FVec F S1024 .f32) : IVec S_ 1 :=
  let main_v0 : FVec F S1024x150 .f32 := Host.absf main_arg1
  let main_cst : FVec F S_ .f32 := constant S_ .f32 0x7F800000#32
  let main_v1 : FVec F S1024x150 .f32 := broadcastInDim S1024x150 ![] bcast_S_S1024x150 main_cst
  let main_v2 : IVec S1024x150 1 := cmpf .olt main_v0 main_v1
  let main_c : IVec S_ 1 := constantI S_ 1 1#1
  let main_v3 : IVec S_ 1 := (fun x v => Host.reduce IntOp.andi x v reducesTo_S1024x150_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S128x512 : Shape := ⟨2, ![128, 512]⟩
abbrev S1024x150 : Shape := ⟨2, ![1024, 150]⟩
abbrev S1024 : Shape := ⟨1, ![1024]⟩
abbrev S_ : Shape := ⟨0, ![]⟩
abbrev S128x150 : Shape := ⟨2, ![128, 150]⟩
abbrev S128 : Shape := ⟨1, ![128]⟩
abbrev S128x1 : Shape := ⟨2, ![128, 1]⟩
abbrev S128x512x1 : Shape := ⟨3, ![128, 512, 1]⟩
abbrev S128x512x2 : Shape := ⟨3, ![128, 512, 2]⟩
abbrev S150x1024 : Shape := ⟨2, ![150, 1024]⟩
abbrev S128x1024 : Shape := ⟨2, ![128, 1024]⟩
abbrev S1x1024 : Shape := ⟨2, ![1, 1024]⟩
abbrev S128x1x1024 : Shape := ⟨3, ![128, 1, 1024]⟩
abbrev S65536x1024 : Shape := ⟨2, ![65536, 1024]⟩
abbrev S8x1x1024 : Shape := ⟨3, ![8, 1, 1024]⟩
abbrev S4096x1024 : Shape := ⟨2, ![4096, 1024]⟩
abbrev S1x1x1024 : Shape := ⟨3, ![1, 1, 1024]⟩
abbrev S512x1024 : Shape := ⟨2, ![512, 1024]⟩

abbrev nBuf : Space → Nat
  | .hbm => 38
  | .vmem => 4
  | .smem => 0
  | _ => 0

abbrev bufTy : (tb : Table) → Fin (tcTables nBuf tb) → BufTy
  | .hbm, ⟨0, _⟩ => ⟨S128x512, .i32⟩
  | .hbm, ⟨1, _⟩ => ⟨S1024x150, .f32⟩
  | .hbm, ⟨2, _⟩ => ⟨S1024, .f32⟩
  | .hbm, ⟨3, _⟩ => ⟨S_, .i32⟩
  | .hbm, ⟨4, _⟩ => ⟨S128x512, .i32⟩
  | .hbm, ⟨5, _⟩ => ⟨S128x512, .i32⟩
  | .hbm, ⟨6, _⟩ => ⟨S_, .f32⟩
  | .hbm, ⟨7, _⟩ => ⟨S128x150, .f32⟩
  | .hbm, ⟨8, _⟩ => ⟨S128, .i32⟩
  | .hbm, ⟨9, _⟩ => ⟨S128x1, .i32⟩
  | .hbm, ⟨10, _⟩ => ⟨S_, .i32⟩
  | .hbm, ⟨11, _⟩ => ⟨S128x1, .i32⟩
  | .hbm, ⟨12, _⟩ => ⟨S128x1, .i1⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S128x1, .i32⟩
  | .hbm, ⟨17, _⟩ => ⟨S_, .i32⟩
  | .hbm, ⟨18, _⟩ => ⟨S128x512, .i32⟩
  | .hbm, ⟨19, _⟩ => ⟨S128x512, .i1⟩
  | .hbm, ⟨20, _⟩ => ⟨S_, .i32⟩
  | .hbm, ⟨21, _⟩ => ⟨S128x512, .i32⟩
  | .hbm, ⟨22, _⟩ => ⟨S128x512, .i32⟩
  | .hbm, ⟨23, _⟩ => ⟨S128x512, .i32⟩
  | .hbm, ⟨24, _⟩ => ⟨S128x512, .i32⟩
  | .hbm, ⟨25, _⟩ => ⟨S128x512x1, .i32⟩
  | .hbm, ⟨26, _⟩ => ⟨S128x512x1, .i32⟩
  | .hbm, ⟨27, _⟩ => ⟨S128x512x2, .i32⟩
  | .hbm, ⟨28, _⟩ => ⟨S_, .f32⟩
  | .hbm, ⟨29, _⟩ => ⟨S128x512, .f32⟩
  | .hbm, ⟨30, _⟩ => ⟨S128x150, .f32⟩
  | .hbm, ⟨31, _⟩ => ⟨S150x1024, .f32⟩
  | .hbm, ⟨32, _⟩ => ⟨S128x1024, .f32⟩
  | .hbm, ⟨33, _⟩ => ⟨S1x1024, .f32⟩
  | .hbm, ⟨34, _⟩ => ⟨S128x1024, .f32⟩
  | .hbm, ⟨35, _⟩ => ⟨S128x1024, .f32⟩
  | .hbm, ⟨36, _⟩ => ⟨S128x1x1024, .f32⟩
  | .hbm, ⟨37, _⟩ => ⟨S65536x1024, .f32⟩
  | .local _ .vmem, ⟨0, _⟩ => ⟨S8x1x1024, .f32⟩
  | .local _ .vmem, ⟨1, _⟩ => ⟨S8x1x1024, .f32⟩
  | .local _ .vmem, ⟨2, _⟩ => ⟨S4096x1024, .f32⟩
  | .local _ .vmem, ⟨3, _⟩ => ⟨S4096x1024, .f32⟩
  | _, _ => ⟨S128x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S128x512 : S_.BroadcastsInDim S128x512 (![] : Fin 0 → Fin S128x512.rank)
  bcast_S_S128x150 : S_.BroadcastsInDim S128x150 (![] : Fin 0 → Fin S128x150.rank)
  bcast_S128_S128x1_0 : S128.BroadcastsInDim S128x1 (![0] : Fin 1 → Fin S128x1.rank)
  bcast_S_S128x1 : S_.BroadcastsInDim S128x1 (![] : Fin 0 → Fin S128x1.rank)
  bcast_S128x1_S128x512_0_1 : S128x1.BroadcastsInDim S128x512 (![0, 1] : Fin 2 → Fin S128x512.rank)
  bcast_S128x512_S128x512x1_0_1 : S128x512.BroadcastsInDim S128x512x1 (![0, 1] : Fin 2 → Fin S128x512x1.rank)
  concatenates_S128x512x1_S128x512x1_S128x512x2_d2 : Shape.Concatenates [S128x512x1, S128x512x1] S128x512x2 2
  transposes_S1024x150_S150x1024_1_0 : S1024x150.Transposes [1, 0] S150x1024
  shapeCasts_S1024_S1x1024 : S1024.ShapeCasts S1x1024
  bcast_S1x1024_S128x1024_0_1 : S1x1024.BroadcastsInDim S128x1024 (![0, 1] : Fin 2 → Fin S128x1024.rank)
  shapeCasts_S128x1024_S128x1x1024 : S128x1024.ShapeCasts S128x1x1024
  inb_S8x1x1024_S1x1x1024_0_0_0 : ∀ a, (![0, 0, 0] : Fin 3 → Nat) a + S1x1x1024.size a ≤ S8x1x1024.size a
  h_S1x1x1024 : 0 < S1x1x1024.numel
  shapeCasts_S1x1x1024_S1x1024 : S1x1x1024.ShapeCasts S1x1024
  shapeCasts_S1x1024_S1x1024 : S1x1024.ShapeCasts S1x1024
  broadcasts_S1x1024_S512x1024 : S1x1024.Broadcasts S512x1024
  inb_S4096x1024_S512x1024_0_0 : ∀ a, (![0, 0] : Fin 2 → Nat) a + S512x1024.size a ≤ S4096x1024.size a
  h_S512x1024 : 0 < S512x1024.numel
  inb_S8x1x1024_S1x1x1024_1_0_0 : ∀ a, (![1, 0, 0] : Fin 3 → Nat) a + S1x1x1024.size a ≤ S8x1x1024.size a
  inb_S4096x1024_S512x1024_512_0 : ∀ a, (![512, 0] : Fin 2 → Nat) a + S512x1024.size a ≤ S4096x1024.size a
  inb_S8x1x1024_S1x1x1024_2_0_0 : ∀ a, (![2, 0, 0] : Fin 3 → Nat) a + S1x1x1024.size a ≤ S8x1x1024.size a
  inb_S4096x1024_S512x1024_1024_0 : ∀ a, (![1024, 0] : Fin 2 → Nat) a + S512x1024.size a ≤ S4096x1024.size a
  inb_S8x1x1024_S1x1x1024_3_0_0 : ∀ a, (![3, 0, 0] : Fin 3 → Nat) a + S1x1x1024.size a ≤ S8x1x1024.size a
  inb_S4096x1024_S512x1024_1536_0 : ∀ a, (![1536, 0] : Fin 2 → Nat) a + S512x1024.size a ≤ S4096x1024.size a
  inb_S8x1x1024_S1x1x1024_4_0_0 : ∀ a, (![4, 0, 0] : Fin 3 → Nat) a + S1x1x1024.size a ≤ S8x1x1024.size a
  inb_S4096x1024_S512x1024_2048_0 : ∀ a, (![2048, 0] : Fin 2 → Nat) a + S512x1024.size a ≤ S4096x1024.size a
  inb_S8x1x1024_S1x1x1024_5_0_0 : ∀ a, (![5, 0, 0] : Fin 3 → Nat) a + S1x1x1024.size a ≤ S8x1x1024.size a
  inb_S4096x1024_S512x1024_2560_0 : ∀ a, (![2560, 0] : Fin 2 → Nat) a + S512x1024.size a ≤ S4096x1024.size a
  inb_S8x1x1024_S1x1x1024_6_0_0 : ∀ a, (![6, 0, 0] : Fin 3 → Nat) a + S1x1x1024.size a ≤ S8x1x1024.size a
  inb_S4096x1024_S512x1024_3072_0 : ∀ a, (![3072, 0] : Fin 2 → Nat) a + S512x1024.size a ≤ S4096x1024.size a
  inb_S8x1x1024_S1x1x1024_7_0_0 : ∀ a, (![7, 0, 0] : Fin 3 → Nat) a + S1x1x1024.size a ≤ S8x1x1024.size a
  inb_S4096x1024_S512x1024_3584_0 : ∀ a, (![3584, 0] : Fin 2 → Nat) a + S512x1024.size a ≤ S4096x1024.size a
  scatter_S128x150_S128x512x2_S128x512_n_01_01_2_wf : ScatterDims.WF S128x150 S128x512x2 S128x512 [] [0, 1] [0, 1] 2
  dot_S128x150_S150x1024_S128x1024_1_0_0_1_n_n_wf : DotDims.WF S128x150 S150x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x1024.size a ≤ S128x1x1024.size a
  hwx0_0 : ∀ i : grid0.Coords, EltTy.bits .f32 = 32 ∨ (Rect.block (s := S128x1x1024) S8x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S65536x1024.size a
  hwx0_1 : ∀ i : grid0.Coords, EltTy.bits .f32 = 32 ∨ (Rect.block (s := S65536x1024) S4096x1024.size (cc0_transform_1 i) (hinb0_1 i)).WholeWords (EltTy.packing .f32)

variable [Facts₀]

def scatter_S128x150_S128x512x2_S128x512_n_01_01_2 : ScatterDims S128x150 S128x512x2 S128x512 where
  updateWindowDims := []
  insertedWindowDims := [0, 1]
  scatterDimsToOperandDims := [0, 1]
  indexVectorDim := 2
  wf := scatter_S128x150_S128x512x2_S128x512_n_01_01_2_wf
def dot_S128x150_S150x1024_S128x1024_1_0_0_1_n_n : DotDims S128x150 S150x1024 S128x1024 where
  lhsContracting := [1]
  rhsContracting := [0]
  lhsNonContracting := [0]
  rhsNonContracting := [1]
  lhsBatch := []
  rhsBatch := []
  wf := dot_S128x150_S150x1024_S128x1024_1_0_0_1_n_n_wf

abbrev win0_0 : Pipeline.Window sig grid0 :=
  Pipeline.Window.ofSpec (Memref.whole main_v26) S8x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4096x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x512 : Shape := ⟨2, ![128, 512]⟩
abbrev S1024x150 : Shape := ⟨2, ![1024, 150]⟩
abbrev S1024 : Shape := ⟨1, ![1024]⟩
abbrev S_ : Shape := ⟨0, ![]⟩
abbrev S128x150 : Shape := ⟨2, ![128, 150]⟩
abbrev S128 : Shape := ⟨1, ![128]⟩
abbrev S128x1 : Shape := ⟨2, ![128, 1]⟩
abbrev S128x512x1 : Shape := ⟨3, ![128, 512, 1]⟩
abbrev S128x512x2 : Shape := ⟨3, ![128, 512, 2]⟩
abbrev S128x512x150 : Shape := ⟨3, ![128, 512, 150]⟩
abbrev S65536x150 : Shape := ⟨2, ![65536, 150]⟩
abbrev S150x1024 : Shape := ⟨2, ![150, 1024]⟩
abbrev S65536x1024 : Shape := ⟨2, ![65536, 1024]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S128x512, .i32⟩
  | .hbm, ⟨1, _⟩ => ⟨S1024x150, .f32⟩
  | .hbm, ⟨2, _⟩ => ⟨S1024, .f32⟩
  | .hbm, ⟨3, _⟩ => ⟨S_, .i32⟩
  | .hbm, ⟨4, _⟩ => ⟨S128x512, .i32⟩
  | .hbm, ⟨5, _⟩ => ⟨S128x512, .i32⟩
  | .hbm, ⟨6, _⟩ => ⟨S_, .f32⟩
  | .hbm, ⟨7, _⟩ => ⟨S128x150, .f32⟩
  | .hbm, ⟨8, _⟩ => ⟨S128, .i32⟩
  | .hbm, ⟨9, _⟩ => ⟨S128x1, .i32⟩
  | .hbm, ⟨10, _⟩ => ⟨S_, .i32⟩
  | .hbm, ⟨11, _⟩ => ⟨S128x1, .i32⟩
  | .hbm, ⟨12, _⟩ => ⟨S128x1, .i1⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S128x1, .i32⟩
  | .hbm, ⟨17, _⟩ => ⟨S_, .i32⟩
  | .hbm, ⟨18, _⟩ => ⟨S128x512, .i32⟩
  | .hbm, ⟨19, _⟩ => ⟨S128x512, .i1⟩
  | .hbm, ⟨20, _⟩ => ⟨S_, .i32⟩
  | .hbm, ⟨21, _⟩ => ⟨S128x512, .i32⟩
  | .hbm, ⟨22, _⟩ => ⟨S128x512, .i32⟩
  | .hbm, ⟨23, _⟩ => ⟨S128x512, .i32⟩
  | .hbm, ⟨24, _⟩ => ⟨S128x512, .i32⟩
  | .hbm, ⟨25, _⟩ => ⟨S128x512x1, .i32⟩
  | .hbm, ⟨26, _⟩ => ⟨S128x512x1, .i32⟩
  | .hbm, ⟨27, _⟩ => ⟨S128x512x2, .i32⟩
  | .hbm, ⟨28, _⟩ => ⟨S_, .f32⟩
  | .hbm, ⟨29, _⟩ => ⟨S128x512, .f32⟩
  | .hbm, ⟨30, _⟩ => ⟨S128x150, .f32⟩
  | .hbm, ⟨31, _⟩ => ⟨S128x512x150, .f32⟩
  | .hbm, ⟨32, _⟩ => ⟨S65536x150, .f32⟩
  | .hbm, ⟨33, _⟩ => ⟨S150x1024, .f32⟩
  | .hbm, ⟨34, _⟩ => ⟨S65536x1024, .f32⟩
  | .hbm, ⟨35, _⟩ => ⟨S1x1024, .f32⟩
  | .hbm, ⟨36, _⟩ => ⟨S65536x1024, .f32⟩
  | .hbm, ⟨37, _⟩ => ⟨S65536x1024, .f32⟩
  | _, _ => ⟨S128x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S_S128x150 : S_.BroadcastsInDim S128x150 (![] : Fin 0 → Fin S128x150.rank)
  bcast_S128_S128x1_0 : S128.BroadcastsInDim S128x1 (![0] : Fin 1 → Fin S128x1.rank)
  bcast_S_S128x1 : S_.BroadcastsInDim S128x1 (![] : Fin 0 → Fin S128x1.rank)
  bcast_S128x1_S128x512_0_1 : S128x1.BroadcastsInDim S128x512 (![0, 1] : Fin 2 → Fin S128x512.rank)
  bcast_S128x512_S128x512x1_0_1 : S128x512.BroadcastsInDim S128x512x1 (![0, 1] : Fin 2 → Fin S128x512x1.rank)
  concatenates_S128x512x1_S128x512x1_S128x512x2_d2 : Shape.Concatenates [S128x512x1, S128x512x1] S128x512x2 2
  bcast_S128x150_S128x512x150_0_2 : S128x150.BroadcastsInDim S128x512x150 (![0, 2] : Fin 2 → Fin S128x512x150.rank)
  shapeCasts_S128x512x150_S65536x150 : S128x512x150.ShapeCasts S65536x150
  transposes_S1024x150_S150x1024_1_0 : S1024x150.Transposes [1, 0] S150x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  scatter_S128x150_S128x512x2_S128x512_n_01_01_2_wf : ScatterDims.WF S128x150 S128x512x2 S128x512 [] [0, 1] [0, 1] 2
  dot_S65536x150_S150x1024_S65536x1024_1_0_0_1_n_n_wf : DotDims.WF S65536x150 S150x1024 S65536x1024 [1] [0] [0] [1] [] []

variable [Facts₀]

def scatter_S128x150_S128x512x2_S128x512_n_01_01_2 : ScatterDims S128x150 S128x512x2 S128x512 where
  updateWindowDims := []
  insertedWindowDims := [0, 1]
  scatterDimsToOperandDims := [0, 1]
  indexVectorDim := 2
  wf := scatter_S128x150_S128x512x2_S128x512_n_01_01_2_wf
def dot_S65536x150_S150x1024_S65536x1024_1_0_0_1_n_n : DotDims S65536x150 S150x1024 S65536x1024 where
  lhsContracting := [1]
  rhsContracting := [0]
  lhsNonContracting := [0]
  rhsNonContracting := [1]
  lhsBatch := []
  rhsBatch := []
  wf := dot_S65536x150_S150x1024_S65536x1024_1_0_0_1_n_n_wf

class Facts : Prop extends Facts₀ where

variable [Facts]
-- ==== Proof.LabelSpec.lean ====
/-
  The function both programs compute.

  From the label array both programs build, by the same operations, one 128 × 150 array `mh` (one row per
  image; for labels 1 … 150 entry (a, k) is one when label k + 1 occurs among image a's 512 labels and zero
  otherwise). What `mh` holds is never used below: it enters as an arbitrary array. With the 1024 × 150 weight
  matrix `W` and the bias vector `b`, image a's projected row is

      row a d = (∑ k, mh (a, k) · W (d, k)) + b d,

  and the result has 65536 = 128 · 512 rows, row r being the projected row of image r / 512: every image's row
  is repeated 512 times. All of it is read on the extended reals, where the sum and the products are exact; no
  law beyond reading each side at an index is needed, so nothing here asks the entries to be finite.
-/
import Idealize.ShloMosaic.PureOps.Ideal
import Idealize.ShloMosaic.Lib.ValueIdx

noncomputable section

open scoped BigOperators

namespace Cert.LabelSpec

open Idealize.ShloMosaic Idealize.ShloMosaic.ValueIdx

/-- Image `a`'s projected row at column `d`: the multi-hot row against row `d` of the weights, plus the bias. -/
def row (mh : (⟨2, ![128, 150]⟩ : Shape).Idx → EReal) (W : (⟨2, ![1024, 150]⟩ : Shape).Idx → EReal)
    (b : (⟨1, ![1024]⟩ : Shape).Idx → EReal) (a : Fin 128) (d : Fin 1024) : EReal :=
  (∑ k : Fin 150, mh (ix2 a k) * W (ix2 d k)) + b (ix1 d)

/-- The image a row of the result belongs to: 512 consecutive rows per image. -/
def imageOf (r : Fin 65536) : Fin 128 := ⟨r.val / 512, by have := r.isLt; omega⟩

/-- The whole result: row `r` is the projected row of image `r / 512`. -/
def expected (mh : (⟨2, ![128, 150]⟩ : Shape).Idx → EReal) (W : (⟨2, ![1024, 150]⟩ : Shape).Idx → EReal)
    (b : (⟨1, ![1024]⟩ : Shape).Idx → EReal) : (⟨2, ![65536, 1024]⟩ : Shape).Idx → EReal :=
  fun i => row mh W b (imageOf (i 0)) (i 1)

end Cert.LabelSpec

end
-- ==== Proof.RepeatedRows.lean ====
/-
  What the body leaves in its output buffer.

  At a grid point the body holds eight rows (an 8 × 1 × 1024 block) and writes a 4096 × 1024 block: for
  j = 0 … 7 it loads row j, drops its two unit axes, lays it along 512 rows and stores those at rows
  512 j … 512 j + 511. So entry (y, d) of the block is the loaded row y / 512 at column d: the eight stores are
  eight tiles of that one function, and a canon of tiles of one function is the function.
-/
import proofs.«127334_j71837622993135_2_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.RepeatedRows

open Cert.KernelIdeal Cert.KernelIdeal.Gen Idealize.ShloMosaic Idealize.ShloMosaic.ValueIdx

variable {F : FTy → Type} [FloatOps F]

/-- One loaded row laid along 512 rows: entry (p, d) is the row's entry d. -/
theorem spread_apply (v : Vec F S1x1x1024 .f32) (p : Fin 512) (d : Fin 1024) :
    k0_pay4 v (ix2 p d) = v (ix3 (0 : Fin 1) (0 : Fin 1) d) := by
  unfold k0_pay4
  rw [broadcastTo_1b_ab_apply, shapeCast_self, shapeCast_1ab_ab_apply]

/-- The block the eight stores tile: row y is the loaded row y / 512. -/
def repeated (x0 : Vec F S8x1x1024 .f32) : Vec F S4096x1024 .f32 :=
  fun y => x0 (ix3 (⟨(y 0).val / 512, by have := idx2_lt0 y; omega⟩ : Fin 8) (0 : Fin 1) (y 1))

/-- The store of loaded row j at rows o = 512 j onwards is the tile of `repeated` its rectangle names. -/
theorem tile_agrees (x0 : Vec F S8x1x1024 .f32) (j o : Nat) (ho : o = 512 * j)
    (inbI : ∀ a, (![j, 0, 0] : Fin 3 → Nat) a + S1x1x1024.size a ≤ S8x1x1024.size a)
    (inbO : ∀ a, (![o, 0] : Fin 2 → Nat) a + S512x1024.size a ≤ S4096x1024.size a)
    (x : S512x1024.Idx) :
    k0_pay4 (View.ld x0 (Rect.unit (s := S8x1x1024) ![j, 0, 0] S1x1x1024.size inbI)) x
      = repeated x0 ((Rect.unit (s := S4096x1024) ![o, 0] S512x1024.size inbO).emb x) := by
  obtain ⟨p, d, rfl⟩ : ∃ (p : Fin 512) (d : Fin 1024), x = ix2 p d := ⟨x 0, x 1, eq_ix2 x⟩
  rw [spread_apply]
  refine congrArg x0 (funext fun a => Fin.ext ?_)
  have hp : p.val < 512 := p.isLt
  match a with
  | ⟨0, _⟩ => show j + 1 * 0 = (o + 1 * p.val) / 512; omega
  | ⟨1, _⟩ => show 0 + 1 * 0 = 0; rfl
  | ⟨2, _⟩ => show 0 + 1 * d.val = 0 + 1 * d.val; rfl

/-- After the body the output buffer holds `repeated` of the input block. -/
theorem out_eq (x0 : Vec F S8x1x1024 .f32) : out0_1 x0 = repeated x0 := by
  funext y
  unfold out0_1
  refine View.canon_apply_of_pieces (repeated x0) _ ?_ y (cover0_1 _ _ _ _ _ _ _ _ y)
  intro p hp
  simp only [List.mem_cons, List.mem_singleton, List.not_mem_nil, or_false] at hp
  rcases hp with rfl | rfl | rfl | rfl | rfl | rfl | rfl | rfl
  · intro x
    show k0_pay4 (View.ld x0 r0_14) x = repeated x0 (r0_15.emb x)
    exact tile_agrees x0 7 3584 rfl _ _ x
  · intro x
    show k0_pay4 (View.ld x0 r0_12) x = repeated x0 (r0_13.emb x)
    exact tile_agrees x0 6 3072 rfl _ _ x
  · intro x
    show k0_pay4 (View.ld x0 r0_10) x = repeated x0 (r0_11.emb x)
    exact tile_agrees x0 5 2560 rfl _ _ x
  · intro x
    show k0_pay4 (View.ld x0 r0_8) x = repeated x0 (r0_9.emb x)
    exact tile_agrees x0 4 2048 rfl _ _ x
  · intro x
    show k0_pay4 (View.ld x0 r0_6) x = repeated x0 (r0_7.emb x)
    exact tile_agrees x0 3 1536 rfl _ _ x
  · intro x
    show k0_pay4 (View.ld x0 r0_4) x = repeated x0 (r0_5.emb x)
    exact tile_agrees x0 2 1024 rfl _ _ x
  · intro x
    show k0_pay4 (View.ld x0 r0_2) x = repeated x0 (r0_3.emb x)
    exact tile_agrees x0 1 512 rfl _ _ x
  · intro x
    show k0_pay4 (View.ld x0 r0_0) x = repeated x0 (r0_1.emb x)
    exact tile_agrees x0 0 0 rfl _ _ x

end Cert.KernelIdeal.RepeatedRows

end
-- ==== Proof.LibPlainProduct.lean ====
/-
  A plain matrix product read at an entry.

  For the dimension numbers of an M×K by K×N product (left operand contracted on its columns, right operand on
  its rows, no batch axis), the vector unit's product into a zero accumulator and the host's general dot
  product, read at the ideal values at row `p` and column `c`, are both the sum over `k : Fin K` of
  `l (p, k) · r (k, c)`: the contraction's one-axis index set is re-indexed by its coordinate, and the two
  operand indices at an output index are computed axis by axis.
-/
import Idealize.ShloMosaic.PureOps.Ideal.Laws
import Idealize.ShloMosaic.Lib.ValueIdx

noncomputable section

open scoped BigOperators

namespace Idealize.ShloMosaic.PlainProduct

open Idealize.ShloMosaic Idealize.ShloMosaic.ValueIdx

variable {M K N : Nat}

/-- The left operand's row at an output index is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction's coordinate. -/
theorem lhs_col (i : (⟨2, ![M, N]⟩ : Shape).Idx) (q : (DotDims.plain M K N).contr.Idx) :
    ((DotDims.plain M K N).lhsIdx i q 1).val = (q ⟨0, (DotDims.plain M K N).rank_contr ▸ Nat.one_pos⟩).val :=
  (DotDims.plain M K N).lhsIdx_val_of_single rfl i q

/-- The right operand's row is the contraction's coordinate. -/
theorem rhs_row (i : (⟨2, ![M, N]⟩ : Shape).Idx) (q : (DotDims.plain M K N).contr.Idx) :
    ((DotDims.plain M K N).rhsIdx i q 0).val = (q ⟨0, (DotDims.plain M K N).rank_contr ▸ Nat.one_pos⟩).val :=
  (DotDims.plain M K N).rhsIdx_val_of_single rfl i q

/-- The right operand's column at an output index is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum at entry `(p, c)` is the sum over `k` of `l (p, k) · r (k, c)`. -/
theorem sum_contr (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

/-- The vector unit's product into a zero accumulator at entry `(p, c)`. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ k : Fin K, l (ix2 p k) * r (ix2 k c) := by
  subst hd
  simp only [matmul]
  rw [Ideal.matmul_constant_zero_apply]
  exact sum_contr l r p c

/-- The host's general dot product at entry `(p, c)`. -/
theorem dotGeneral_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    (Host.dotGeneral d prec l r : FVec Ideal ⟨2, ![M, N]⟩ .f32) (ix2 p c) = ∑ k : Fin K, l (ix2 p k) * r (ix2 k c) := by
  subst hd
  simp only [Host.dotGeneral]
  rw [Ideal.dotGeneral_apply]
  exact sum_contr l r p c

end Idealize.ShloMosaic.PlainProduct

end
-- ==== Proof.ProjectedRows.lean ====
/-
  What the region finds in its input array.

  Before the region the host builds the multi-hot array from the labels (a scatter of ones into zeros; it is
  named here and never opened), multiplies it by the transposed weights, adds the bias laid along every row, and
  inserts a unit axis: a 128 × 1 × 1024 array whose entry (a, 0, d) is image a's projected row at d,

      (∑ k, mh (a, k) · W (d, k)) + b d.

  The product is read at an entry as that sum over the contracted axis; the transposition swaps the two
  coordinates of W; the bias row and the unit axis are layout only.
-/
import proofs.«127334_j71837622993135_2_alg».proof.Proof.Gen.KernelIdeal.Frame
import proofs.«127334_j71837622993135_2_alg».proof.Proof.LabelSpec
import proofs.«127334_j71837622993135_2_alg».proof.Proof.LibPlainProduct
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ProjectedRows

open Cert.KernelIdeal Cert.KernelIdeal.Gen Idealize.ShloMosaic Idealize.ShloMosaic.TcCoe Idealize.SL.Sem
open Idealize.ShloMosaic.StableHlo Idealize.ShloMosaic.ValueIdx

/-- The multi-hot array as the host builds it from the label array `pp`: ones scattered into a 128 × 150 array of
    zeros at (image, label − 1), a negative index first wrapped once by the axis's length. The term is the
    program's own; nothing below depends on what the scatter does with an index, in range or not. -/
def multiHot (pp : (⟨S128x512, .i32⟩ : BufTy).Contents (Elt Ideal)) : FVec Ideal S128x150 .f32 :=
  Host.scatter scatter_S128x150_S128x512x2_S128x512_n_01_01_2 (fun _ b => b) (broadcastInDim S128x150 ![] bcast_S_S128x150 (constant S_ .f32 0x00000000#32)) (concatenate S128x512x2 2 [⟨S128x512x1, (broadcastInDim S128x512x1 ![0, 1] bcast_S128x512_S128x512x1_0_1 (broadcastInDim S128x512 ![0, 1] bcast_S128x1_S128x512_0_1 (select (cmpi .slt (broadcastInDim S128x1 ![0] bcast_S128_S128x1_0 (iotaInDim S128 32 0)) (broadcastInDim S128x1 ![] bcast_S_S128x1 (constantI S_ 32 0#32))) (addi (broadcastInDim S128x1 ![0] bcast_S128_S128x1_0 (iotaInDim S128 32 0)) (broadcastInDim S128x1 ![] bcast_S_S128x1 (constantI S_ 32 128#32))) (broadcastInDim S128x1 ![0] bcast_S128_S128x1_0 (iotaInDim S128 32 0)))))⟩, ⟨S128x512x1, (broadcastInDim S128x512x1 ![0, 1] bcast_S128x512_S128x512x1_0_1 (select (cmpi .slt (subi pp (broadcastInDim S128x512 ![] bcast_S_S128x512 (constantI S_ 32 1#32))) (broadcastInDim S128x512 ![] bcast_S_S128x512 (constantI S_ 32 0#32))) (addi (subi pp (broadcastInDim S128x512 ![] bcast_S_S128x512 (constantI S_ 32 1#32))) (broadcastInDim S128x512 ![] bcast_S_S128x512 (constantI S_ 32 150#32))) (subi pp (broadcastInDim S128x512 ![] bcast_S_S128x512 (constantI S_ 32 1#32)))))⟩] concatenates_S128x512x1_S128x512x1_S128x512x2_d2) (broadcastInDim S128x512 ![] bcast_S_S128x512 (constant S_ .f32 0x3F800000#32))

/-- The host's rows as one term of the multi-hot array, the weights and the bias. -/
def hostRows (mh : FVec Ideal S128x150 .f32) (W : FVec Ideal S1024x150 .f32) (b : FVec Ideal S1024 .f32) :
    FVec Ideal S128x1x1024 .f32 :=
  shapeCast S128x1x1024
    (addf
      (Host.dotGeneral dot_S128x150_S150x1024_S128x1024_1_0_0_1_n_n none mh
        (transpose S150x1024 [1, 0] W transposes_S1024x150_S150x1024_1_0))
      (broadcastInDim S128x1024 ![0, 1] bcast_S1x1024_S128x1024_0_1 (shapeCast S1x1024 b shapeCasts_S1024_S1x1024)))
    shapeCasts_S128x1024_S128x1x1024

variable (m : (ℓ : Loc nD τ sig) → Buf (Elt Ideal) ℓ)

set_option maxHeartbeats 2000000 in
/-- The region's input array is the host's rows of the argument arrays. -/
theorem found (c : Dev nD) :
    (V m c main_v26 : S128x1x1024.Idx → EReal)
      = hostRows (multiHot (m ((c : Thread nD τ).loc main_arg0))) (m ((c : Thread nD τ).loc main_arg1))
          (m ((c : Thread nD τ).loc main_arg2)) := by
  dsimp only [Gen.V, Gen.hostOps0]
  after_results_simp <;> rfl

/-- The transposed weights at (k, d) are the weights at (d, k). -/
theorem transposed_apply (W : FVec Ideal S1024x150 .f32) (k : Fin 150) (d : Fin 1024) :
    transpose S150x1024 [1, 0] W transposes_S1024x150_S150x1024_1_0 (ix2 k d) = W (ix2 d k) :=
  transpose_apply [1, 0] W transposes_S1024x150_S150x1024_1_0 (ix2 k d) (ix2 d k) (fun b => match b with
    | ⟨0, _⟩ => rfl
    | ⟨1, _⟩ => rfl)

/-- The bias laid as a 1 × 1024 row along every one of the 128 rows, at (a, d), is the bias at d. -/
theorem biasRows_apply (b : FVec Ideal S1024 .f32) (a : Fin 128) (d : Fin 1024) :
    broadcastInDim S128x1024 ![0, 1] bcast_S1x1024_S128x1024_0_1 (shapeCast S1x1024 b shapeCasts_S1024_S1x1024) (ix2 a d)
      = b (ix1 d) := by
  rw [broadcastInDim_apply _ bcast_S1x1024_S128x1024_0_1 _ (ix2 a d) (ix2 (0 : Fin 1) d) (fun ax => match ax with
    | ⟨0, _⟩ => by show 0 = if (1 : Nat) = 1 then 0 else a.val; rw [if_pos rfl]
    | ⟨1, _⟩ => by show d.val = if (1024 : Nat) = 1 then 0 else d.val; rw [if_neg (by decide)])]
  exact shapeCast_a_1a_apply b shapeCasts_S1024_S1x1024 0 d

/-- The host's rows at (a, 0, d): image a's projected row at d. -/
theorem hostRows_apply (mh : FVec Ideal S128x150 .f32) (W : FVec Ideal S1024x150 .f32) (b : FVec Ideal S1024 .f32)
    (a : Fin 128) (u : Fin 1) (d : Fin 1024) :
    hostRows mh W b (ix3 a u d) = Cert.LabelSpec.row mh W b a d := by
  unfold hostRows Cert.LabelSpec.row
  rw [shapeCast_apply _ shapeCasts_S128x1024_S128x1x1024 (ix3 a u d) (ix2 a d) (by
    rw [Shape.rowMajor_val_two, Shape.rowMajor_val_three]
    show a.val * 1024 + d.val = (a.val * 1 + u.val) * 1024 + d.val
    have := u.isLt; omega)]
  rw [addf_apply, biasRows_apply,
    Idealize.ShloMosaic.PlainProduct.dotGeneral_apply dot_S128x150_S150x1024_S128x1024_1_0_0_1_n_n rfl]
  exact congrArg (· + b (ix1 d)) (Finset.sum_congr rfl fun k _ => congrArg (mh (ix2 a k) * ·) (transposed_apply W k d))

end Cert.KernelIdeal.ProjectedRows

end
-- ==== Proof.KernelArray.lean ====
/-
  The kernel's output array.

  The grid has sixteen points. Point t reads rows 8 t … 8 t + 7 of the host's 128 × 1 × 1024 array of projected
  rows and writes rows 4096 t … 4096 t + 4095 of the result, row y of its block being the loaded row y / 512.
  So result row r = 4096 t + y holds projected row 8 t + y / 512 = r / 512: every point writes its block of the
  one function `expected`, the sixteen blocks tile the 65536 rows, and the array ends holding `expected`.
-/
import proofs.«127334_j71837622993135_2_alg».proof.Proof.Gen.KernelIdeal.Value
import proofs.«127334_j71837622993135_2_alg».proof.Proof.LabelSpec
import proofs.«127334_j71837622993135_2_alg».proof.Proof.RepeatedRows
import proofs.«127334_j71837622993135_2_alg».proof.Proof.ProjectedRows

noncomputable section

namespace Cert.KernelIdeal.KernelArray

open Cert.KernelIdeal Cert.KernelIdeal.Gen Idealize.ShloMosaic Idealize.ShloMosaic.TcCoe Idealize.SL.Sem
open Idealize.ShloMosaic.ValueIdx Cert.KernelIdeal.ProjectedRows Cert.KernelIdeal.RepeatedRows
open Idealize.ShloMosaic.Pipeline (Dat)

/-- The host's rows at any index: the projected row of its image coordinate at its column coordinate. -/
theorem hostRows_at (mh : FVec Ideal S128x150 .f32) (W : FVec Ideal S1024x150 .f32) (b : FVec Ideal S1024 .f32)
    (j : S128x1x1024.Idx) : hostRows mh W b j = Cert.LabelSpec.row mh W b (j 0) (j 2) :=
  (congrArg (hostRows mh W b) (eq_ix3 j)).trans (hostRows_apply mh W b (j 0) (j 1) (j 2))

/-- An entry of the host's rows whose image coordinate is r / 512 and whose column is d is the specification at
    (r, d). -/
theorem entry_eq (A : S128x1x1024.Idx → EReal) (mh : FVec Ideal S128x150 .f32) (W : FVec Ideal S1024x150 .f32)
    (b : FVec Ideal S1024 .f32) (hA : A = hostRows mh W b) (z : S128x1x1024.Idx) (i : S65536x1024.Idx)
    (h0 : (z 0).val = (i 0).val / 512) (h2 : (z 2).val = (i 1).val) :
    A z = Cert.LabelSpec.expected mh W b i := by
  subst hA
  rw [hostRows_at]
  unfold Cert.LabelSpec.expected
  exact congrArg₂ (Cert.LabelSpec.row mh W b) (Fin.ext h0) (Fin.ext h2)

variable (m : (ℓ : Loc nD τ sig) → Buf (Elt Ideal) ℓ) (ρ : Dev nD → PrngReg)

/-- The specification at this run's argument arrays. -/
def target (c : Dev nD) : S65536x1024.Idx → EReal :=
  Cert.LabelSpec.expected (multiHot (m ((c : Thread nD τ).loc main_arg0))) (m ((c : Thread nD τ).loc main_arg1))
    (m ((c : Thread nD τ).loc main_arg2))

/-- The printed index maps, decided over the sixteen points: the input's block index on the image axis is the
    output's on the row axis, and every other block index is zero. -/
theorem idx_facts : ∀ t : Fin cfg0.N, win0_0.index t (0 : Fin 3) = win0_1.index t (0 : Fin 2)
    ∧ win0_0.index t (1 : Fin 3) = 0 ∧ win0_0.index t (2 : Fin 3) = 0
    ∧ win0_1.index t (1 : Fin 2) = 0 ∧ win0_1.index t (0 : Fin 2) ≤ 15 :=
  (by decide +kernel : ∀ t : Fin grid0.N, _)

/-- Every one of the sixteen row blocks is some point's. -/
theorem idx_onto : ∀ q : Fin 16, ∃ t : Fin cfg0.N, win0_1.index t = ![q.val, 0] :=
  (by decide +kernel : ∀ q : Fin 16, ∃ t : Fin grid0.N, win0_1.index t = ![q.val, 0])

/-- What point t writes back is block t of the specification. -/
theorem flushed_eq (c : Dev nD) (t : Fin cfg0.N) :
    (dats m 0 c).flushed 1 t = ((cfg0.win 1).blk t).view.read (Elt Ideal) (target m c) := by
  refine (Cert.KernelIdeal.Value.flushed1 m c t).trans ?_
  obtain ⟨e0, e1, e2, e3, e4⟩ := idx_facts t
  funext y
  show out0_1 (iblk m c 0 t) y = target m c (((cfg0.win 1).blk t).view.emb y)
  refine (congrFun (out_eq (F := Ideal) (iblk m c 0 t)) y).trans ?_
  have hy : (y 0).val < 4096 := (y 0).isLt
  refine entry_eq (V m c main_v26) _ _ _ (found m c) _ _ ?_ ?_
  · show win0_0.index t (0 : Fin 3) * 8 + 1 * ((y 0).val / 512) = (win0_1.index t (0 : Fin 2) * 4096 + 1 * (y 0).val) / 512
    omega
  · show win0_0.index t (2 : Fin 3) * 1024 + 1 * (y 1).val = win0_1.index t (1 : Fin 2) * 1024 + 1 * (y 1).val
    omega

/-- An index of the result is in point t's block iff each coordinate is in the block's range on its axis. -/
theorem mem_blk (t : Fin cfg0.N) (i : S65536x1024.Idx) :
    i ∈ ((cfg0.win 1).blk t).view.set ↔ ∀ a : Fin 2, win0_1.index t a * S4096x1024.size a ≤ (i a).val
      ∧ (i a).val < win0_1.index t a * S4096x1024.size a + S4096x1024.size a := by
  show i ∈ ((View.whole main_v27).slice (win0_1.rect t)).set ↔ _
  rw [View.set_slice_whole, Rect.mem_set_unit]
  exact Iff.rfl

/-- Row r lies in the block of the point whose row block is r / 4096. -/
theorem cover (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  obtain ⟨t, ht⟩ := idx_onto ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 4096 ≤ (i 0).val ∧ (i 0).val < win0_1.index t (0 : Fin 2) * 4096 + 4096
    omega
  | ⟨1, _⟩ =>
    show win0_1.index t (1 : Fin 2) * 1024 ≤ (i 1).val ∧ (i 1).val < win0_1.index t (1 : Fin 2) * 1024 + 1024
    omega

/-- After the run the output array is the specification. -/
theorem final (c : Dev nD) : (dats m 0 c).arrAt 1 cfg0.N = target m c :=
  (dats m 0 c).arrAt_eq_of_cover 1 (target m c) (fun t _ => flushed_eq m c t) cover

/-- The kernel's run: the result array ends at the specification, the arguments unchanged. -/
theorem run : θ_run defs (onTc (τ := τ) (main (F := Ideal))) ⟨m, fun _ => 0, ρ⟩ fun r => ∀ c : Dev nD,
      r.2.mem ((c : Thread nD τ).loc main_v27) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KernelArray

end
-- ==== Proof.ReferenceArray.lean ====
/-
  The reference computes the specification.

  The reference repeats each image's multi-hot row 512 times (a broadcast along a new middle axis, then a
  reshape of 128 × 512 × 150 to 65536 × 150), multiplies by the transposed weights and adds the bias. Read at
  entry (r, d): flattened row r, column k of the repeated array sits at position r · 150 + k of the row-major
  order, whose image coordinate is (r · 150 + k) / (512 · 150) = r / 512 and whose label coordinate is
  (r · 150 + k) mod 150 = k. So the entry is (∑ k, mh (r / 512, k) · W (d, k)) + b d.
-/
import proofs.«127334_j71837622993135_2_alg».proof.Proof.Gen.ReferenceIdeal.Read
import proofs.«127334_j71837622993135_2_alg».proof.Proof.LabelSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- Row r, column k of the repeated multi-hot array is the multi-hot array at (r / 512, k). -/
theorem repeated_idx (r : Fin 65536) (d : Fin 1024) (k : Fin 150) :
    idx_main_v21 (idx_main_v22 (lidx_main_v24 (ix2 r d) k)) = ix2 (Cert.LabelSpec.imageOf r) k := by
  have hr : r.val < 65536 := r.isLt
  have hk : k.val < 150 := k.isLt
  funext a; apply Fin.ext
  match a with
  | ⟨0, _⟩ => show (r.val * 150 + k.val) / 76800 = r.val / 512; omega
  | ⟨1, _⟩ => show (r.val * 150 + k.val) % 150 = k.val; omega

/-- The transposed weights at (k, d) are the weights at (d, k). -/
theorem weights_idx (r : Fin 65536) (d : Fin 1024) (k : Fin 150) :
    idx_main_v23 (ridx_main_v24 (ix2 r d) k) = ix2 d k := by
  funext a
  match a with
  | ⟨0, _⟩ => rfl
  | ⟨1, _⟩ => rfl

/-- The bias laid along every row, at (r, d), is the bias at d. -/
theorem bias_idx (r : Fin 65536) (d : Fin 1024) : idx_main_v25 (idx_main_v26 (ix2 r d)) = ix1 d := by
  funext a
  match a with
  | ⟨0, _⟩ => rfl

/-- The reference's result is the specification at its own multi-hot array. -/
theorem result_eq (x0 : (⟨S128x512, .i32⟩ : BufTy).Contents (Elt Ideal)) (x1 : (⟨S1024x150, .f32⟩ : BufTy).Contents (Elt Ideal))
    (x2 : (⟨S1024, .f32⟩ : BufTy).Contents (Elt Ideal)) :
    val_main_v27 (F := Ideal) x0 x1 x2 = Cert.LabelSpec.expected (val_main_v20 (F := Ideal) x0) x1 x2 := by
  funext i
  obtain ⟨r, d, rfl⟩ : ∃ (r : Fin 65536) (d : Fin 1024), i = ix2 r d := ⟨i 0, i 1, eq_ix2 i⟩
  rw [val_main_v27_apply, val_main_v24_apply, val_main_v26_apply, val_main_v25_apply]
  simp only [val_main_v22_apply, val_main_v21_apply, val_main_v23_apply, repeated_idx, weights_idx, bias_idx,
    Ideal.addf_def]
  rfl

end Cert.ReferenceIdeal.RefValue

end
-- ==== Proof.SameLabels.lean ====
/-
  The two programs build one multi-hot array.

  Both hosts build it from the label array by the same operations with the same constants: subtract one, wrap a
  negative index once by the axis's length, pair it with the image's number, and scatter ones into a 128 × 150
  array of zeros. The two terms differ only in which program's side conditions they cite, so they are equal by
  unfolding the reference's stages; the scatter itself is never opened.
-/
import proofs.«127334_j71837622993135_2_alg».proof.Proof.Gen.ReferenceIdeal.Read
import proofs.«127334_j71837622993135_2_alg».proof.Proof.ProjectedRows

noncomputable section

namespace Cert.SameLabels

open Idealize.ShloMosaic

/-- The reference's multi-hot stage is the kernel's host's, as functions of the label array. -/
theorem multiHot_eq (x0 : (⟨Cert.ReferenceIdeal.S128x512, .i32⟩ : BufTy).Contents (Elt Ideal)) :
    Cert.ReferenceIdeal.Read.val_main_v20 (F := Ideal) x0 = Cert.KernelIdeal.ProjectedRows.multiHot x0 := rfl

end Cert.SameLabels

end
-- ==== Proof.lean ====
/-
  Every image's projected row, repeated 512 times.

  The kernel projects each image's multi-hot row once on the host (128 rows: multi-hot row · Wᵀ + b) and its
  sixteen grid points copy each projected row into 512 consecutive rows of the result. The reference first
  repeats each multi-hot row 512 times and then projects all 65536 rows. At the ideal values both results are, at
  entry (r, d),

      (∑ k, mh (r / 512, k) · W (d, k)) + b d,

  with `mh` the multi-hot array both hosts build by the same operations. The two sides are read at an index and
  meet in that one expression; no law of the extended reals beyond that is used, so the finiteness of the inputs
  is never opened. The idealized kernel is the kernel's own text read at the ideal values (no operation of it was
  rewritten), so that conjunct is trivial.
-/
import proofs.«127334_j71837622993135_2_alg».proof.Defs
import proofs.«127334_j71837622993135_2_alg».proof.Proof.Gen.Kernel
import proofs.«127334_j71837622993135_2_alg».proof.Proof.Gen.Kernel.Skeleton
import proofs.«127334_j71837622993135_2_alg».proof.Proof.Gen.Kernel.Launch
import proofs.«127334_j71837622993135_2_alg».proof.Proof.Gen.Kernel.Points
import proofs.«127334_j71837622993135_2_alg».proof.Proof.Gen.Kernel.Frame
import proofs.«127334_j71837622993135_2_alg».proof.Proof.Gen.KernelIdeal
import proofs.«127334_j71837622993135_2_alg».proof.Proof.Gen.KernelIdeal.Skeleton
import proofs.«127334_j71837622993135_2_alg».proof.Proof.Gen.KernelIdeal.Launch
import proofs.«127334_j71837622993135_2_alg».proof.Proof.Gen.KernelIdeal.Points
import proofs.«127334_j71837622993135_2_alg».proof.Proof.Gen.KernelIdeal.Frame
import proofs.«127334_j71837622993135_2_alg».proof.Proof.Gen.ReferenceIdeal
import proofs.«127334_j71837622993135_2_alg».proof.Proof.Gen.Pre_finite_inputs
import proofs.«127334_j71837622993135_2_alg».proof.Proof.Gen.KernelIdeal.Value
import proofs.«127334_j71837622993135_2_alg».proof.Proof.Gen.ReferenceIdeal.Run
import proofs.«127334_j71837622993135_2_alg».proof.Proof.Gen.ReferenceIdeal.Read
import proofs.«127334_j71837622993135_2_alg».proof.Proof.KernelArray
import proofs.«127334_j71837622993135_2_alg».proof.Proof.ReferenceArray
import proofs.«127334_j71837622993135_2_alg».proof.Proof.SameLabels
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at the specification of its arguments
    and the reference's at the specification of its own: the multi-hot arrays are one term and the arguments
    agree, so the two are one array. -/
theorem algebraic : Cert.algebraic_KernelIdeal_ReferenceIdeal := by
  intro m ρ m' ρ' _ hagree
  refine ⟨fun c => Cert.KernelIdeal.KernelArray.target m c, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, Cert.SameLabels.multiHot_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
